-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x1024x8 : Shape := ⟨3, ![1024, 1024, 8]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024x8 : S_.BroadcastsInDim S1024x1024x8 (![] : Fin 0 → Fin S1024x1024x8.rank)
  reducesTo_S1024x1024x8_S_d0_1_2 : S1024x1024x8.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn {F : FTy → Type} [FloatOps F] (main_arg0 : FVec F S8192x1024 .f32) (main_arg1 : FVec F S1024x1024x8 .f32) (main_arg2 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024x8 .f32 := Host.absf main_arg1
  let main_cst_0 : FVec F S_ .f32 := constant S_ .f32 0x7F800000#32
  let main_v5 : FVec F S1024x1024x8 .f32 := broadcastInDim S1024x1024x8 ![] bcast_S_S1024x1024x8 main_cst_0
  let main_v6 : IVec S1024x1024x8 1 := cmpf .olt main_v4 main_v5
  let main_c_1 : IVec S_ 1 := constantI S_ 1 1#1
  let main_v7 : IVec S_ 1 := (fun x v => Host.reduce IntOp.andi x v reducesTo_S1024x1024x8_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Kernel.lean ====
abbrev S8192x1024 : Shape := ⟨2, ![8192, 1024]⟩
abbrev S1024x1024x8 : Shape := ⟨3, ![1024, 1024, 8]⟩
abbrev S1024x1024 : Shape := ⟨2, ![1024, 1024]⟩
abbrev S_ : Shape := ⟨0, ![]⟩
abbrev S2048x1024 : Shape := ⟨2, ![2048, 1024]⟩

abbrev nBuf : Space → Nat
  | .hbm => 9
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024x8, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S8192x1024, .f32⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S1024x1024x8_S1024x1024_d2 : S1024x1024x8.ReducesTo [2] S1024x1024
  h_S_ : 0 < S_.numel
  transposes_S1024x1024_S1024x1024_1_0 : S1024x1024.Transposes [1, 0] S1024x1024
  bitsLt_bf16_f32 : FTy.bits .bf16 < FTy.bits .f32
  inb_S2048x1024_S2048x1024_0_0 : ∀ a, (![0, 0] : Fin 2 → Nat) a + S2048x1024.size a ≤ S2048x1024.size a
  h_S2048x1024 : 0 < S2048x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S2048x1024_S1024x1024_S2048x1024_1_0_0_1_n_n_wf : DotDims.WF S2048x1024 S1024x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S8192x1024.size a
  hwx0_0 : ∀ i : grid0.Coords, EltTy.bits .f32 = 32 ∨ (Rect.block (s := S8192x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x1024.size a
  hwx0_2 : ∀ i : grid0.Coords, EltTy.bits .f32 = 32 ∨ (Rect.block (s := S8192x1024) S2048x1024.size (cc0_transform_2 i) (hinb0_2 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

abbrev win0_0 : Pipeline.Window sig grid0 :=
  Pipeline.Window.ofSpec (Memref.whole main_arg0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x1024x8 : Shape := ⟨3, ![1024, 1024, 8]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024x8, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]

class Facts₀ : Prop where
  reducesTo_S1024x1024x8_S1024x1024_d2 : S1024x1024x8.ReducesTo [2] S1024x1024
  h_S_ : 0 < S_.numel
  dot_S8192x1024_S1024x1024_S8192x1024_1_1_0_0_n_n_wf : DotDims.WF S8192x1024 S1024x1024 S8192x1024 [1] [1] [0] [0] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.RowProduct.lean ====
/-
  The function both programs compute, stated once over plain index types: for a matrix `x` of 8192 rows and a
  matrix `w` of 1024 rows, both with 1024 columns, entry `(b, o)` of the result is the product of row `b` of `x`
  with row `o` of `w`,
      out (b, o) = ∑ k, x (b, k) * w (o, k),
  a sum of 1024 products on the extended reals. The kernel reaches it through the transposed weights
  (`wT (k, o) = w (o, k)`) and one block of 2048 rows at a time; the reference contracts the second axis of both
  operands directly. Nothing about the extended reals is used beyond their being a commutative monoid under `+`:
  the two sides are the same sum term by term.
-/
import Idealize.ShloMosaic.PureOps.Ideal
import Idealize.ShloMosaic.Lib.ValueIdx

noncomputable section

open scoped BigOperators

namespace Cert.RowProduct

open Idealize.ShloMosaic Idealize.ShloMosaic.ValueIdx

/-- Rows of `x` times rows of `w`: entry `(b, o)` is `∑ k, x (b, k) * w (o, k)`. -/
def rowsByRows (x : (⟨2, ![8192, 1024]⟩ : Shape).Idx → EReal) (w : (⟨2, ![1024, 1024]⟩ : Shape).Idx → EReal) :
    (⟨2, ![8192, 1024]⟩ : Shape).Idx → EReal :=
  fun i => ∑ k : Fin 1024, x (ix2 (n0 := 8192) (n1 := 1024) (i 0) k) * w (ix2 (n0 := 1024) (n1 := 1024) (i 1) k)

/-- The same at explicit coordinates. -/
theorem rowsByRows_apply (x : (⟨2, ![8192, 1024]⟩ : Shape).Idx → EReal) (w : (⟨2, ![1024, 1024]⟩ : Shape).Idx → EReal)
    (b : Fin 8192) (o : Fin 1024) :
    rowsByRows x w (ix2 b o) = ∑ k : Fin 1024, x (ix2 b k) * w (ix2 o k) := rfl

end Cert.RowProduct

end
-- ==== Proof.ReferenceRows.lean ====
/-
  The reference's result, read index by index: its last operation contracts the second axis of `x` with the second
  axis of the weight matrix `w = (∑ p, coefficients (·, ·, p)) * weights`, so entry `(b, o)` is
  `∑ k, x (b, k) * w (o, k)` — rows of `x` times rows of `w`. The two operand indices the contraction reads at
  `(b, o)` and `k` are `(b, k)` and `(o, k)`, coordinate by coordinate.
-/
import proofs.«165106_j76020921140428_2_alg».proof.Proof.Gen.ReferenceIdeal.Read
import proofs.«165106_j76020921140428_2_alg».proof.Proof.RowProduct

noncomputable section

open scoped BigOperators

namespace Cert.ReferenceIdeal.RefValue

open Cert.ReferenceIdeal Cert.ReferenceIdeal.Read Idealize.ShloMosaic Idealize.ShloMosaic.ValueIdx Cert.RowProduct

/-- The left operand's index at output `(b, o)` and contraction position `k` is `(b, k)`. -/
theorem left_index (i : S8192x1024.Idx) (k : Fin 1024) :
    lidx_main_v2 i k = ix2 (n0 := 8192) (n1 := 1024) (i 0) k :=
  funext fun a => Fin.ext (by match a with | ⟨0, _⟩ => rfl | ⟨1, _⟩ => rfl)

/-- The right operand's index at output `(b, o)` and contraction position `k` is `(o, k)`. -/
theorem right_index (i : S8192x1024.Idx) (k : Fin 1024) :
    ridx_main_v2 i k = ix2 (n0 := 1024) (n1 := 1024) (i 1) k :=
  funext fun a => Fin.ext (by match a with | ⟨0, _⟩ => rfl | ⟨1, _⟩ => rfl)

/-- The reference's result is rows of `x` times rows of its weight matrix. -/
theorem result_rows (x0 : (⟨S8192x1024, .f32⟩ : BufTy).Contents (Elt Ideal))
    (x1 : (⟨S1024x1024x8, .f32⟩ : BufTy).Contents (Elt Ideal)) (x2 : (⟨S1024x1024, .f32⟩ : BufTy).Contents (Elt Ideal)) :
    val_main_v2 (F := Ideal) x0 x1 x2 = rowsByRows x0 (val_main_v1 (F := Ideal) x1 x2) := by
  funext i
  rw [val_main_v2_apply]
  refine Finset.sum_congr rfl fun k _ => ?_
  rw [left_index, right_index]

end Cert.ReferenceIdeal.RefValue

end
-- ==== Proof.BlockProduct.lean ====
/-
  What the kernel body computes from its two loaded blocks, read at one entry. The body narrows a block `a` of 2048
  rows of `x` (at the ideal instance a change of format is the identity), takes the transposed weights `wT` whole
  (the shape cast is to the same shape), and multiplies them into the zero accumulator, contracting the second axis
  of `a` with the FIRST axis of `wT`. So entry `(r, o)` of the block it stores is
      ∑ k, a (r, k) * wT (k, o),
  the zero accumulator contributing nothing. The contraction runs over one axis of extent 1024, re-indexed by its
  one coordinate.
-/
import proofs.«165106_j76020921140428_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

/-- Left operand, row axis: the output's row. -/
theorem left_row (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide),
    dif_pos (show (0 : Fin S2048x1024.rank) ∈ dot_S2048x1024_S1024x1024_S2048x1024_1_0_0_1_n_n.lhsNonContracting by decide)]
  rfl

/-- Left operand, column axis: the contraction position. -/
theorem left_col (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q

/-- Right operand, row axis: the contraction position. -/
theorem right_row (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q

/-- Right operand, column axis: the output's column. -/
theorem right_col (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide),
    dif_pos (show (1 : Fin S1024x1024.rank) ∈ dot_S2048x1024_S1024x1024_S2048x1024_1_0_0_1_n_n.rhsNonContracting by decide)]
  rfl

/-- Entry `(r, o)` of the block the body stores: row `r` of the loaded block of `x` times column `o` of the
    transposed weights. -/
theorem stored_apply (a : Vec Ideal S2048x1024 .f32) (wT : Vec Ideal S1024x1024 .bf16) (r : Fin 2048) (o : Fin 1024) :
    k0_pay1 (F := Ideal) a wT (ix2 r o) = ∑ k : Fin 1024, a (ix2 r k) * wT (ix2 k o) := by
  unfold k0_pay1
  rw [shapeCast_self]
  refine (Ideal.matmul_constant_zero_apply (φ₁ := .bf16) (φ₂ := .bf16) dot_S2048x1024_S1024x1024_S2048x1024_1_0_0_1_n_n none
    (truncf .bf16 a bitsLt_bf16_f32) wT (ix2 r o)).trans ?_
  rw [← Equiv.sum_comp (contrEquiv1 dot_S2048x1024_S1024x1024_S2048x1024_1_0_0_1_n_n 1024 rfl rfl).symm]
  refine Finset.sum_congr rfl fun k _ => ?_
  have hk := contrEquiv1_symm_val dot_S2048x1024_S1024x1024_S2048x1024_1_0_0_1_n_n 1024 rfl rfl k
  have el : dot_S2048x1024_S1024x1024_S2048x1024_1_0_0_1_n_n.lhsIdx (ix2 r o)
      ((contrEquiv1 dot_S2048x1024_S1024x1024_S2048x1024_1_0_0_1_n_n 1024 rfl rfl).symm k) = ix2 r k :=
    funext fun c => Fin.ext (by
      match c with
      | ⟨0, _⟩ => exact left_row _ _
      | ⟨1, _⟩ => exact (left_col _ _).trans hk)
  have er : dot_S2048x1024_S1024x1024_S2048x1024_1_0_0_1_n_n.rhsIdx (ix2 r o)
      ((contrEquiv1 dot_S2048x1024_S1024x1024_S2048x1024_1_0_0_1_n_n 1024 rfl rfl).symm k) = ix2 k o :=
    funext fun c => Fin.ext (by
      match c with
      | ⟨0, _⟩ => exact (right_row _ _).trans hk
      | ⟨1, _⟩ => exact right_col _ _)
  rw [el, er]
  rfl

end Cert.KernelIdeal.BlockValue

end
-- ==== Proof.WeightsTransposed.lean ====
/-
  What the kernel's second window stages. Before the region the host computes the weight matrix
      w (o, k) = (0 + ∑ p, coefficients (o, k, p)) * weights (o, k),
  transposes it and narrows it; the region finds that array in place. At the ideal instance narrowing is the
  identity, so the staged array at `(k, o)` is `w (o, k)`.
-/
import proofs.«165106_j76020921140428_2_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.HostValue

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The weight matrix the host computes from the two weight arguments: the coefficients summed over their last
    axis (from zero), times the weights, entry by entry. -/
def weightMatrix (x1 : (⟨S1024x1024x8, .f32⟩ : BufTy).Contents (Elt F)) (x2 : (⟨S1024x1024, .f32⟩ : BufTy).Contents (Elt F)) :
    (⟨S1024x1024, .f32⟩ : BufTy).Contents (Elt F) :=
  mulf (Host.reduceAdd x1 (constant (F := F) S_ .f32 0x00000000#32) reducesTo_S1024x1024x8_S1024x1024_d2 h_S_) x2

/-- The array the second window stages, as the region finds it: the weight matrix transposed, then narrowed. -/
theorem staged_eq (m : (ℓ : Loc nD τ sig) → Buf (Elt F) ℓ) (c : Dev nD) :
    (V m c main_v3 : S1024x1024.Idx → F .bf16)
      = truncf .bf16 (transpose S1024x1024 [1, 0]
          (weightMatrix (m ((c : Thread nD τ).loc main_arg1)) (m ((c : Thread nD τ).loc main_arg2)))
          transposes_S1024x1024_S1024x1024_1_0) bitsLt_bf16_f32 := by
  dsimp only [Gen.V, Gen.hostOps0]
  after_results
  rfl

/-- At the ideal instance its entry `(k, o)` is the weight matrix's entry `(o, k)`. -/
theorem staged_apply (m : (ℓ : Loc nD τ sig) → Buf (Elt Ideal) ℓ) (c : Dev nD) (k o : Fin 1024) :
    (V m c main_v3 : S1024x1024.Idx → EReal) (ix2 k o)
      = weightMatrix (F := Ideal) (m ((c : Thread nD τ).loc main_arg1)) (m ((c : Thread nD τ).loc main_arg2)) (ix2 o k) := by
  rw [staged_eq]
  exact (truncf_apply (φ := .f32) (ψ := .bf16) _ bitsLt_bf16_f32 (ix2 k o)).trans (transpose_ix2_apply _ _ k o)

end Cert.KernelIdeal.HostValue

end
-- ==== Proof.RowBlocks.lean ====
/-
  From blocks to the whole result. The grid has four points; point `t` loads rows `2048 t … 2048 t + 2047` of `x`
  and the transposed weights whole, and writes back rows `2048 t … 2048 t + 2047` of the result. An entry of a
  block is, by the body's product, row `r` of the block of `x` times column `o` of the transposed weights, which is
  row `2048 t + r` of `x` times row `o` of the weight matrix: the block of `rowsByRows x w` that point `t`'s window
  names. Row `b` of the result lies in the block of point `b / 2048`, so the four blocks cover the array and it ends
  holding `rowsByRows x w`.
-/
import proofs.«165106_j76020921140428_2_alg».proof.Proof.Gen.KernelIdeal.Value
import proofs.«165106_j76020921140428_2_alg».proof.Proof.RowProduct
import proofs.«165106_j76020921140428_2_alg».proof.Proof.BlockProduct
import proofs.«165106_j76020921140428_2_alg».proof.Proof.WeightsTransposed

set_option maxRecDepth 16384

noncomputable section

open scoped BigOperators

namespace Cert.KernelIdeal.ArrayValue

open Cert.KernelIdeal Cert.KernelIdeal.Gen Idealize.ShloMosaic Idealize.ShloMosaic.TcCoe Idealize.SL.Sem
open Idealize.ShloMosaic.Pipeline (Dat)
open Idealize.ShloMosaic.ValueIdx Cert.RowProduct Cert.KernelIdeal.HostValue Cert.KernelIdeal.BlockValue

variable (m : (ℓ : Loc nD τ sig) → Buf (Elt Ideal) ℓ) (ρ : Dev nD → PrngReg)

theorem zero_offsets : (![0, 0] : Fin 2 → Nat) = fun _ => 0 := funext fun a => by fin_cases a <;> rfl

/-- The result as one function of the arguments: rows of `x` times rows of the host's weight matrix. -/
abbrev result (c : Dev nD) : S8192x1024.Idx → EReal :=
  rowsByRows (m ((c : Thread nD τ).loc main_arg0))
    (weightMatrix (F := Ideal) (m ((c : Thread nD τ).loc main_arg1)) (m ((c : Thread nD τ).loc main_arg2)))

/-- The three index maps over the grid: the blocks of `x` and of the result move down with the point, the weights'
    block stays. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One entry of a stored block, over plain variables: if the loaded block `a` is rows `2048 p + ·` of `X` and the
    loaded `wT` is `W` transposed, then the body's product at `y` is `rowsByRows X W` at the array index `i` whose
    row is `2048 p + y 0` and whose column is `y 1`. -/
theorem block_entry (a : Vec Ideal S2048x1024 .f32) (wT : Vec Ideal S1024x1024 .bf16)
    (X : S8192x1024.Idx → EReal) (W : S1024x1024.Idx → EReal) (p : Nat)
    (ha : ∀ (r : Fin 2048) (k : Fin 1024) (h : p * 2048 + r.val < 8192), a (ix2 r k) = X (ix2 ⟨p * 2048 + r.val, h⟩ k))
    (hw : ∀ k o : Fin 1024, wT (ix2 k o) = W (ix2 o k))
    (y : S2048x1024.Idx) (i : S8192x1024.Idx) (hi0 : (i 0).val = p * 2048 + (y 0).val) (hi1 : (i 1).val = (y 1).val) :
    k0_pay1 (F := Ideal) a wT y = rowsByRows X W i := by
  obtain ⟨r, o, rfl⟩ : ∃ (r : Fin 2048) (o : Fin 1024), y = ix2 r o := ⟨y 0, y 1, eq_ix2 y⟩
  obtain ⟨b, o', rfl⟩ : ∃ (b : Fin 8192) (o' : Fin 1024), i = ix2 b o' := ⟨i 0, i 1, eq_ix2 i⟩
  have hb : b.val = p * 2048 + r.val := hi0
  have ho : o' = o := Fin.ext hi1
  subst ho
  rw [stored_apply, rowsByRows_apply]
  refine Finset.sum_congr rfl fun k _ => ?_
  rw [ha r k (hb ▸ b.isLt), hw k o']
  exact congrArg (fun z => X (ix2 z k) * W (ix2 o' k)) (Fin.ext hb.symm)

/-- What point `t` writes back is block `t` of the result. -/
theorem flushed_rows (c : Dev nD) (t : Fin cfg0.N) :
    (dats m 0 c).flushed 2 t = ((cfg0.win 2).blk t).view.read (Elt Ideal) (result m c) := by
  rw [Value.flushed2]
  unfold out0_2
  rw [View.canon_unit_zero zero_offsets]
  simp only [View.ld_unit_zero (S := S2048x1024) zero_offsets, View.ld_unit_zero (S := S1024x1024) zero_offsets]
  obtain ⟨e0, e1, e2, e3, e4, e5⟩ := index_facts t
  funext j
  show k0_pay1 (F := Ideal) (iblk m c 0 t) (iblk m c 1 t) j = result m c (((cfg0.win 2).blk t).view.emb j)
  refine block_entry (iblk m c 0 t) (iblk m c 1 t) _ _ t.val ?_ ?_ j (((cfg0.win 2).blk t).view.emb j) ?_ ?_
  · intro r k h
    show V m c main_arg0 (((cfg0.win 0).blk t).view.emb (ix2 r k)) = _
    rw [V_main_arg0]
    refine congrArg _ (funext fun d => Fin.ext ?_)
    match d with
    | ⟨0, _⟩ => show win0_0.index t (0 : Fin 2) * 2048 + 1 * r.val = t.val * 2048 + r.val; omega
    | ⟨1, _⟩ => show win0_0.index t (1 : Fin 2) * 1024 + 1 * k.val = k.val; omega
  · intro k o
    show V m c main_v3 (((cfg0.win 1).blk t).view.emb (ix2 k o)) = _
    have hemb : ((cfg0.win 1).blk t).view.emb (ix2 k o) = ix2 k o := by
      funext d; apply Fin.ext
      match d with
      | ⟨0, _⟩ => show win0_1.index t (0 : Fin 2) * 1024 + 1 * k.val = k.val; omega
      | ⟨1, _⟩ => show win0_1.index t (1 : Fin 2) * 1024 + 1 * o.val = o.val; omega
    rw [hemb]
    exact staged_apply m c k o
  · show win0_2.index t (0 : Fin 2) * 2048 + 1 * (j 0).val = t.val * 2048 + (j 0).val; omega
  · show win0_2.index t (1 : Fin 2) * 1024 + 1 * (j 1).val = (j 1).val; omega

/-- An index of the result is in point `t`'s block iff each coordinate is in the block's range on its axis. -/
theorem mem_block (t : Fin cfg0.N) (i : S8192x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v4).slice (win0_2.rect t)).set ↔ _
  rw [View.set_slice_whole, Rect.mem_set_unit]
  exact Iff.rfl

/-- Every index of the result is in some point's block: row `b` in the block of point `b / 2048`. -/
theorem covered (i : S8192x1024.Idx) :
    ∃ t : Fin cfg0.N, (cfg0.win 2).flush t = true ∧ i ∈ ((cfg0.win 2).blk t).view.set := by
  have hi0 : (i 0).val < 8192 := (i 0).isLt
  have hi1 : (i 1).val < 1024 := (i 1).isLt
  have hN : (i 0).val / 2048 < grid0.N := by rw [N_0]; omega
  refine ⟨⟨(i 0).val / 2048, hN⟩, flush0_2 _, ?_⟩
  obtain ⟨e0, e1, e2, e3, e4, e5⟩ := index_facts ⟨(i 0).val / 2048, hN⟩
  have e4' : win0_2.index ⟨(i 0).val / 2048, hN⟩ (0 : Fin 2) = (i 0).val / 2048 := e4
  rw [mem_block]
  intro a
  match a with
  | ⟨0, _⟩ =>
    show win0_2.index ⟨(i 0).val / 2048, hN⟩ (0 : Fin 2) * 2048 ≤ (i 0).val
      ∧ (i 0).val < win0_2.index ⟨(i 0).val / 2048, hN⟩ (0 : Fin 2) * 2048 + 2048
    omega
  | ⟨1, _⟩ =>
    show win0_2.index ⟨(i 0).val / 2048, hN⟩ (1 : Fin 2) * 1024 ≤ (i 1).val
      ∧ (i 1).val < win0_2.index ⟨(i 0).val / 2048, hN⟩ (1 : Fin 2) * 1024 + 1024
    omega

/-- The result array after the run is rows of `x` times rows of the weight matrix. -/
theorem final (c : Dev nD) : (dats m 0 c).arrAt 2 cfg0.N = result m c :=
  (dats m 0 c).arrAt_eq_of_cover 2 (result m c) (fun t _ => flushed_rows m c t) covered

/-- The kernel's run: the result array at that function of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.ArrayValue

end
-- ==== Proof.lean ====
/- The kernel computes its result in two stages and the reference in one; both end holding, at entry `(b, o)`,
       ∑ k, x (b, k) * w (o, k),     w (o, k) = (0 + ∑ p, coefficients (o, k, p)) * weights (o, k),
   as extended reals. The host part that builds `w` is the same three operations in both programs. The kernel then
   transposes `w`, narrows it (the identity at the ideal instance) and multiplies blocks of 2048 rows of `x` by it
   into a zero accumulator, contracting the columns of `x` with the rows of the transposed matrix; the reference
   contracts the columns of `x` with the columns of `w` directly. Term by term these are one sum, so no law of the
   extended reals beyond reading the transpose is used, and the finiteness of the inputs is never opened.
   `RowProduct` states the function; `ReferenceRows` reads the reference as it; `BlockProduct` reads the body's
   product at an entry; `WeightsTransposed` reads the staged weights; `RowBlocks` carries the four blocks to the
   whole array. The three frames are the generated ones (the reference's is its run with the result dropped), and
   the idealization rewrote no operation, so its preservation claim is `True`. -/
import proofs.«165106_j76020921140428_2_alg».proof.Defs
import proofs.«165106_j76020921140428_2_alg».proof.Proof.Gen.Kernel
import proofs.«165106_j76020921140428_2_alg».proof.Proof.Gen.Kernel.Skeleton
import proofs.«165106_j76020921140428_2_alg».proof.Proof.Gen.Kernel.Launch
import proofs.«165106_j76020921140428_2_alg».proof.Proof.Gen.Kernel.Points
import proofs.«165106_j76020921140428_2_alg».proof.Proof.Gen.Kernel.Frame
import proofs.«165106_j76020921140428_2_alg».proof.Proof.Gen.KernelIdeal
import proofs.«165106_j76020921140428_2_alg».proof.Proof.Gen.KernelIdeal.Skeleton
import proofs.«165106_j76020921140428_2_alg».proof.Proof.Gen.KernelIdeal.Launch
import proofs.«165106_j76020921140428_2_alg».proof.Proof.Gen.KernelIdeal.Points
import proofs.«165106_j76020921140428_2_alg».proof.Proof.Gen.KernelIdeal.Frame
import proofs.«165106_j76020921140428_2_alg».proof.Proof.Gen.ReferenceIdeal
import proofs.«165106_j76020921140428_2_alg».proof.Proof.Gen.Pre_finite_inputs
import proofs.«165106_j76020921140428_2_alg».proof.Proof.Gen.KernelIdeal.Value
import proofs.«165106_j76020921140428_2_alg».proof.Proof.Gen.ReferenceIdeal.Run
import proofs.«165106_j76020921140428_2_alg».proof.Proof.Gen.ReferenceIdeal.Read
import proofs.«165106_j76020921140428_2_alg».proof.Proof.RowProduct
import proofs.«165106_j76020921140428_2_alg».proof.Proof.ReferenceRows
import proofs.«165106_j76020921140428_2_alg».proof.Proof.BlockProduct
import proofs.«165106_j76020921140428_2_alg».proof.Proof.WeightsTransposed
import proofs.«165106_j76020921140428_2_alg».proof.Proof.RowBlocks
import Idealize.ShloMosaic.Adequacy
import Idealize.ShloMosaic.Init

noncomputable section

namespace Cert.Proof

open Idealize.ShloMosaic Idealize.SL.Sem Cert.Kernel

/-- The word-level kernel runs and leaves its arguments as they were (the generated frame). -/
theorem frame_kernel : Cert.frame_Kernel := fun m ρ _ => Cert.Kernel.Gen.frame m ρ

/-- So does the idealized kernel. -/
theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the three arguments, the kernel's result array ends at rows of `x` times rows of the
    weight matrix (`RowBlocks`), and the reference's result is that same function of its own arguments
    (`ReferenceRows`); the weight matrix is one term in both programs. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.result_rows,
    (hagree c).1, (hagree c).2.1, (hagree c).2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
